-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x196 : Shape := ⟨2, ![524288, 196]⟩
abbrev S128x196 : Shape := ⟨2, ![128, 196]⟩
abbrev S128 : Shape := ⟨1, ![128]⟩
abbrev S128x128 : Shape := ⟨2, ![128, 128]⟩
abbrev S10x128 : Shape := ⟨2, ![10, 128]⟩
abbrev S10 : Shape := ⟨1, ![10]⟩
abbrev S_ : Shape := ⟨0, ![]⟩

class Facts : Prop where
  bcast_S_S524288x196 : S_.BroadcastsInDim S524288x196 (![] : Fin 0 → Fin S524288x196.rank)
  reducesTo_S524288x196_S_d0_1 : S524288x196.ReducesTo [0, 1] S_
  h_S_ : 0 < S_.numel
  bcast_S_S128x196 : S_.BroadcastsInDim S128x196 (![] : Fin 0 → Fin S128x196.rank)
  reducesTo_S128x196_S_d0_1 : S128x196.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10x128 .f32) (main_arg8 : FVec F S10 .f32) (main_v33 : IVec S_ 1) : IVec S_ 1 :=
  let main_v34 : FVec F S10x128 .f32 := Host.absf main_arg7
  let main_cst_12 : FVec F S_ .f32 := constant S_ .f32 0x7F800000#32
  let main_v35 : FVec F S10x128 .f32 := broadcastInDim S10x128 ![] bcast_S_S10x128 main_cst_12
  let main_v36 : IVec S10x128 1 := cmpf .olt main_v34 main_v35
  let main_c_13 : IVec S_ 1 := constantI S_ 1 1#1
  let main_v37 : IVec S_ 1 := (fun x v => Host.reduce IntOp.andi x v reducesTo_S10x128_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S10x128 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S524288x196 .f32) (main_arg1 : FVec F S128x196 .f32) (main_arg2 : FVec F S128 .f32) (main_arg3 : FVec F S128x128 .f32) (main_arg4 : FVec F S128 .f32) (main_arg5 : FVec F S128x128 .f32) (main_arg6 : FVec F S128 .f32) (main_arg7 : FVec F S10x128 .f32) (main_arg8 : FVec F S10 .f32) : IVec S_ 1 :=
  let main_v0 : FVec F S524288x196 .f32 := Host.absf main_arg0
  let main_cst : FVec F S_ .f32 := constant S_ .f32 0x7F800000#32
  let main_v1 : FVec F S524288x196 .f32 := broadcastInDim S524288x196 ![] bcast_S_S524288x196 main_cst
  let main_v2 : IVec S524288x196 1 := cmpf .olt main_v0 main_v1
  let main_c : IVec S_ 1 := constantI S_ 1 1#1
  let main_v3 : IVec S_ 1 := (fun x v => Host.reduce IntOp.andi x v reducesTo_S524288x196_S_d0_1 h_S_) main_v2 main_c
  let main_v4 : FVec F S128x196 .f32 := Host.absf main_arg1
  let main_cst_0 : FVec F S_ .f32 := constant S_ .f32 0x7F800000#32
  let main_v5 : FVec F S128x196 .f32 := broadcastInDim S128x196 ![] bcast_S_S128x196 main_cst_0
  let main_v6 : IVec S128x196 1 := cmpf .olt main_v4 main_v5
  let main_c_1 : IVec S_ 1 := constantI S_ 1 1#1
  let main_v7 : IVec S_ 1 := (fun x v => Host.reduce IntOp.andi x v reducesTo_S128x196_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S524288x196 : Shape := ⟨2, ![524288, 196]⟩
abbrev S128x196 : Shape := ⟨2, ![128, 196]⟩
abbrev S128 : Shape := ⟨1, ![128]⟩
abbrev S128x128 : Shape := ⟨2, ![128, 128]⟩
abbrev S10x128 : Shape := ⟨2, ![10, 128]⟩
abbrev S10 : Shape := ⟨1, ![10]⟩
abbrev S196x128 : Shape := ⟨2, ![196, 128]⟩
abbrev S128x10 : Shape := ⟨2, ![128, 10]⟩
abbrev S1x128 : Shape := ⟨2, ![1, 128]⟩
abbrev S1x10 : Shape := ⟨2, ![1, 10]⟩
abbrev S524288x10 : Shape := ⟨2, ![524288, 10]⟩
abbrev S16384x196 : Shape := ⟨2, ![16384, 196]⟩
abbrev S16384x10 : Shape := ⟨2, ![16384, 10]⟩
abbrev S16384x128 : Shape := ⟨2, ![16384, 128]⟩

abbrev nBuf : Space → Nat
  | .hbm => 24
  | .vmem => 12
  | .smem => 0
  | _ => 0

abbrev bufTy : (tb : Table) → Fin (tcTables nBuf tb) → BufTy
  | .hbm, ⟨0, _⟩ => ⟨S524288x196, .f32⟩
  | .hbm, ⟨1, _⟩ => ⟨S128x196, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10x128, .f32⟩
  | .hbm, ⟨8, _⟩ => ⟨S10, .f32⟩
  | .hbm, ⟨9, _⟩ => ⟨S128x196, .f32⟩
  | .hbm, ⟨10, _⟩ => ⟨S196x128, .f32⟩
  | .hbm, ⟨11, _⟩ => ⟨S196x128, .bf16⟩
  | .hbm, ⟨12, _⟩ => ⟨S128x128, .f32⟩
  | .hbm, ⟨13, _⟩ => ⟨S128x128, .f32⟩
  | .hbm, ⟨14, _⟩ => ⟨S128x128, .bf16⟩
  | .hbm, ⟨15, _⟩ => ⟨S128x128, .f32⟩
  | .hbm, ⟨16, _⟩ => ⟨S128x128, .f32⟩
  | .hbm, ⟨17, _⟩ => ⟨S128x128, .bf16⟩
  | .hbm, ⟨18, _⟩ => ⟨S128x10, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x10, .f32⟩
  | .hbm, ⟨23, _⟩ => ⟨S524288x10, .f32⟩
  | .local _ .vmem, ⟨0, _⟩ => ⟨S16384x196, .f32⟩
  | .local _ .vmem, ⟨1, _⟩ => ⟨S16384x196, .f32⟩
  | .local _ .vmem, ⟨2, _⟩ => ⟨S196x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x10, .f32⟩
  | .local _ .vmem, ⟨9, _⟩ => ⟨S1x10, .f32⟩
  | .local _ .vmem, ⟨10, _⟩ => ⟨S16384x10, .f32⟩
  | .local _ .vmem, ⟨11, _⟩ => ⟨S16384x10, .f32⟩
  | _, _ => ⟨S524288x196, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S196x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16384x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x196_S196x128_1_0 : S128x196.Transposes [1, 0] S196x128
  bitsLt_bf16_f32 : FTy.bits .bf16 < FTy.bits .f32
  transposes_S128x128_S128x128_1_0 : S128x128.Transposes [1, 0] S128x128
  transposes_S10x128_S128x10_1_0 : S10x128.Transposes [1, 0] S128x10
  shapeCasts_S128_S1x128 : S128.ShapeCasts S1x128
  shapeCasts_S10_S1x10 : S10.ShapeCasts S1x10
  inb_S16384x196_S16384x196_0_0 : ∀ a, (![0, 0] : Fin 2 → Nat) a + S16384x196.size a ≤ S16384x196.size a
  h_S16384x196 : 0 < S16384x196.numel
  inb_S196x128_S196x128_0_0 : ∀ a, (![0, 0] : Fin 2 → Nat) a + S196x128.size a ≤ S196x128.size a
  h_S196x128 : 0 < S196x128.numel
  shapeCasts_S196x128_S196x128 : S196x128.ShapeCasts S196x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S16384x10 : S1x10.Broadcasts S16384x10
  inb_S16384x10_S16384x10_0_0 : ∀ a, (![0, 0] : Fin 2 → Nat) a + S16384x10.size a ≤ S16384x10.size a
  h_S16384x10 : 0 < S16384x10.numel
  dot_S16384x196_S196x128_S16384x128_1_0_0_1_n_n_wf : DotDims.WF S16384x196 S196x128 S16384x128 [1] [0] [0] [1] [] []
  dot_S16384x128_S128x128_S16384x128_1_0_0_1_n_n_wf : DotDims.WF S16384x128 S128x128 S16384x128 [1] [0] [0] [1] [] []
  dot_S16384x128_S128x10_S16384x10_1_0_0_1_n_n_wf : DotDims.WF S16384x128 S128x10 S16384x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x196.size a ≤ S524288x196.size a
  hwx0_0 : ∀ i : grid0.Coords, EltTy.bits .f32 = 32 ∨ (Rect.block (s := S524288x196) S16384x196.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S196x128.size a ≤ S196x128.size a
  hwx0_1 : ∀ i : grid0.Coords, EltTy.bits .bf16 = 32 ∨ (Rect.block (s := S196x128) S196x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x10.size a ≤ S128x10.size a
  hwx0_7 : ∀ i : grid0.Coords, EltTy.bits .f32 = 32 ∨ (Rect.block (s := S128x10) S128x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16384x10.size a ≤ S524288x10.size a
  hwx0_9 : ∀ i : grid0.Coords, EltTy.bits .f32 = 32 ∨ (Rect.block (s := S524288x10) S16384x10.size (cc0_transform_9 i) (hinb0_9 i)).WholeWords (EltTy.packing .f32)

variable [Facts₀]

def dot_S16384x196_S196x128_S16384x128_1_0_0_1_n_n : DotDims S16384x196 S196x128 S16384x128 where
  lhsContracting := [1]
  rhsContracting := [0]
  lhsNonContracting := [0]
  rhsNonContracting := [1]
  lhsBatch := []
  rhsBatch := []
  wf := dot_S16384x196_S196x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x10_S16384x10_1_0_0_1_n_n : DotDims S16384x128 S128x10 S16384x10 where
  lhsContracting := [1]
  rhsContracting := [0]
  lhsNonContracting := [0]
  rhsNonContracting := [1]
  lhsBatch := []
  rhsBatch := []
  wf := dot_S16384x128_S128x10_S16384x10_1_0_0_1_n_n_wf

abbrev win0_0 : Pipeline.Window sig grid0 :=
  Pipeline.Window.ofSpec (Memref.whole main_arg0) S16384x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S196x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S16384x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S524288x196 : Shape := ⟨2, ![524288, 196]⟩
abbrev S128x196 : Shape := ⟨2, ![128, 196]⟩
abbrev S128 : Shape := ⟨1, ![128]⟩
abbrev S128x128 : Shape := ⟨2, ![128, 128]⟩
abbrev S10x128 : Shape := ⟨2, ![10, 128]⟩
abbrev S10 : Shape := ⟨1, ![10]⟩
abbrev S196x128 : Shape := ⟨2, ![196, 128]⟩
abbrev S524288x128 : Shape := ⟨2, ![524288, 128]⟩
abbrev S1x128 : Shape := ⟨2, ![1, 128]⟩
abbrev S_ : Shape := ⟨0, ![]⟩
abbrev S128x10 : Shape := ⟨2, ![128, 10]⟩
abbrev S524288x10 : Shape := ⟨2, ![524288, 10]⟩
abbrev S1x10 : Shape := ⟨2, ![1, 10]⟩

abbrev nBuf : Space → Nat
  | .hbm => 47
  | .vmem => 0
  | .smem => 0
  | _ => 0

abbrev bufTy : (tb : Table) → Fin (tcTables nBuf tb) → BufTy
  | .hbm, ⟨0, _⟩ => ⟨S524288x196, .f32⟩
  | .hbm, ⟨1, _⟩ => ⟨S128x196, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10x128, .f32⟩
  | .hbm, ⟨8, _⟩ => ⟨S10, .f32⟩
  | .hbm, ⟨9, _⟩ => ⟨S128x196, .f32⟩
  | .hbm, ⟨10, _⟩ => ⟨S128x196, .f32⟩
  | .hbm, ⟨11, _⟩ => ⟨S128x196, .f32⟩
  | .hbm, ⟨12, _⟩ => ⟨S196x128, .f32⟩
  | .hbm, ⟨13, _⟩ => ⟨S524288x128, .f32⟩
  | .hbm, ⟨14, _⟩ => ⟨S1x128, .f32⟩
  | .hbm, ⟨15, _⟩ => ⟨S524288x128, .f32⟩
  | .hbm, ⟨16, _⟩ => ⟨S524288x128, .f32⟩
  | .hbm, ⟨17, _⟩ => ⟨S_, .f32⟩
  | .hbm, ⟨18, _⟩ => ⟨S524288x128, .f32⟩
  | .hbm, ⟨19, _⟩ => ⟨S524288x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S524288x128, .f32⟩
  | .hbm, ⟨25, _⟩ => ⟨S1x128, .f32⟩
  | .hbm, ⟨26, _⟩ => ⟨S524288x128, .f32⟩
  | .hbm, ⟨27, _⟩ => ⟨S524288x128, .f32⟩
  | .hbm, ⟨28, _⟩ => ⟨S_, .f32⟩
  | .hbm, ⟨29, _⟩ => ⟨S524288x128, .f32⟩
  | .hbm, ⟨30, _⟩ => ⟨S524288x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S524288x128, .f32⟩
  | .hbm, ⟨36, _⟩ => ⟨S1x128, .f32⟩
  | .hbm, ⟨37, _⟩ => ⟨S524288x128, .f32⟩
  | .hbm, ⟨38, _⟩ => ⟨S524288x128, .f32⟩
  | .hbm, ⟨39, _⟩ => ⟨S_, .f32⟩
  | .hbm, ⟨40, _⟩ => ⟨S524288x128, .f32⟩
  | .hbm, ⟨41, _⟩ => ⟨S524288x128, .f32⟩
  | .hbm, ⟨42, _⟩ => ⟨S128x10, .f32⟩
  | .hbm, ⟨43, _⟩ => ⟨S524288x10, .f32⟩
  | .hbm, ⟨44, _⟩ => ⟨S1x10, .f32⟩
  | .hbm, ⟨45, _⟩ => ⟨S524288x10, .f32⟩
  | .hbm, ⟨46, _⟩ => ⟨S524288x10, .f32⟩
  | _, _ => ⟨S524288x196, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_cst : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call2_cst : Ref sig .tc := ⟨.hbm, 39, rfl⟩
abbrev main_call2_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  transposes_S128x196_S196x128_1_0 : S128x196.Transposes [1, 0] S196x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  transposes_S128x128_S128x128_1_0 : S128x128.Transposes [1, 0] S128x128
  transposes_S10x128_S128x10_1_0 : S10x128.Transposes [1, 0] S128x10
  bcast_S10_S1x10_1 : S10.BroadcastsInDim S1x10 (![1] : Fin 1 → Fin S1x10.rank)
  bcast_S1x10_S524288x10_0_1 : S1x10.BroadcastsInDim S524288x10 (![0, 1] : Fin 2 → Fin S524288x10.rank)
  dot_S524288x196_S196x128_S524288x128_1_0_0_1_n_n_wf : DotDims.WF S524288x196 S196x128 S524288x128 [1] [0] [0] [1] [] []
  dot_S524288x128_S128x128_S524288x128_1_0_0_1_n_n_wf : DotDims.WF S524288x128 S128x128 S524288x128 [1] [0] [0] [1] [] []
  dot_S524288x128_S128x10_S524288x10_1_0_0_1_n_n_wf : DotDims.WF S524288x128 S128x10 S524288x10 [1] [0] [0] [1] [] []

variable [Facts₀]

def dot_S524288x196_S196x128_S524288x128_1_0_0_1_n_n : DotDims S524288x196 S196x128 S524288x128 where
  lhsContracting := [1]
  rhsContracting := [0]
  lhsNonContracting := [0]
  rhsNonContracting := [1]
  lhsBatch := []
  rhsBatch := []
  wf := dot_S524288x196_S196x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x128_S128x10_S524288x10_1_0_0_1_n_n : DotDims S524288x128 S128x10 S524288x10 where
  lhsContracting := [1]
  rhsContracting := [0]
  lhsNonContracting := [0]
  rhsNonContracting := [1]
  lhsBatch := []
  rhsBatch := []
  wf := dot_S524288x128_S128x10_S524288x10_1_0_0_1_n_n_wf

class Facts : Prop extends Facts₀ where

variable [Facts]
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.MlpRow.lean ====
/-
  A four-layer perceptron on ONE row of the batch, over the extended reals.

  A row `x` of 196 features goes through three hidden layers of width 128 and a head of width 10. A layer is affine:
  entry `n` of its output is `∑ k, h k * w k n + b n`, the weights `w` given in (in, out) layout. The hidden layers
  are followed by the rectifier `v ↦ max v 0`, the zero spelt as the f32 word both programs write. Nothing here rounds:
  sums and products are the extended reals' own, so the order in which a program accumulates a row does not appear.

  The reference binarizes its hidden weights as `w + (sign w - w)`. On a FINITE `w` that is `sign w` (the two
  occurrences of `w` cancel); at an infinity it is not (`⊤ + (1 - ⊤)` is `⊥`), which is why finiteness of the weights
  is used where the two programs are compared.
-/
import Idealize.ShloMosaic.PureOps.Ideal

noncomputable section

open scoped BigOperators

namespace Cert.Mlp

open Idealize.ShloMosaic

/-- One affine layer on a row: entry `n` of `h · w + b`, the weights in (in, out) layout. -/
def affine {K N : ℕ} (w : Fin K → Fin N → EReal) (b : Fin N → EReal) (h : Fin K → EReal) (n : Fin N) : EReal :=
  (∑ k : Fin K, h k * w k n) + b n

/-- The rectifier, against the zero both programs write as the f32 word `0x00000000`. -/
def relu (v : EReal) : EReal := max v (Ideal.ofBits .f32 0x00000000#32)

/-- A hidden layer: the affine layer, then the rectifier. -/
def hidden {K N : ℕ} (w : Fin K → Fin N → EReal) (b : Fin N → EReal) (h : Fin K → EReal) (n : Fin N) : EReal :=
  relu (affine w b h n)

/-- The network on one row: three hidden layers and the affine head. -/
def row (x : Fin 196 → EReal) (w1 : Fin 196 → Fin 128 → EReal) (b1 : Fin 128 → EReal)
    (w2 : Fin 128 → Fin 128 → EReal) (b2 : Fin 128 → EReal) (w3 : Fin 128 → Fin 128 → EReal) (b3 : Fin 128 → EReal)
    (w4 : Fin 128 → Fin 10 → EReal) (b4 : Fin 10 → EReal) : Fin 10 → EReal :=
  affine w4 b4 (hidden w3 b3 (hidden w2 b2 (hidden w1 b1 x)))

/-- On a finite weight the straight-through binarization `w + (sign w - w)` is `sign w`. -/
theorem add_sign_sub_self {w : EReal} (htop : w ≠ ⊤) (hbot : w ≠ ⊥) : w + (Ideal.sign w - w) = Ideal.sign w := by
  induction w using EReal.rec with
  | bot => exact absurd rfl hbot
  | top => exact absurd rfl htop
  | coe r =>
    rw [Ideal.sign_coe, ← EReal.coe_sub, ← EReal.coe_add]
    congr 1
    ring

end Cert.Mlp

end
-- ==== Proof.KernelLayer.lean ====
/-
  One layer of the kernel's body, read at an entry.

  The body computes a layer on a whole block of rows at once: the matrix product of the block of activations `h`
  (`A` rows, `K` features) with the weights `w` (`K × B`, already in (in, out) layout), accumulated into the zero
  matrix; plus the bias, a `1 × B` row repeated down the `A` rows; and, for a hidden layer, the rectifier against the
  zero splat. At entry `(a, n)` that is the row function of `MlpRow` applied to row `a` of `h`: the product is the
  exact sum over the shared axis, the repeated row is read at its one row, and every other operation is entry by entry.
-/
import Idealize.ShloMosaic.Lib.ValueLayout
import proofs.«141843_j48404281426021_2_alg».proof.Proof.LibMatmulPlain
import proofs.«141843_j48404281426021_2_alg».proof.Proof.MlpRow

noncomputable section

namespace Cert.KernelLayer

open Idealize.ShloMosaic Idealize.ShloMosaic.ValueIdx

variable {A K B : ℕ} {φ₁ φ₂ : FTy}

/-- The product into zero plus the repeated bias row, at `(a, n)`: the affine layer on row `a`. -/
theorem affine_apply (h : FVec Ideal ⟨2, ![A, K]⟩ φ₁) (w : FVec Ideal ⟨2, ![K, B]⟩ φ₂) (bias : FVec Ideal ⟨2, ![1, B]⟩ .f32)
    (hw : (⟨2, ![K, B]⟩ : Shape).ShapeCasts ⟨2, ![K, B]⟩) (hc : (⟨2, ![1, B]⟩ : Shape).ShapeCasts ⟨2, ![1, B]⟩)
    (hb : (⟨2, ![1, B]⟩ : Shape).Broadcasts ⟨2, ![A, B]⟩) (a : Fin A) (n : Fin B) :
    addf (matmul (DotDims.plain A K B) none h (shapeCast ⟨2, ![K, B]⟩ w hw) (constant ⟨2, ![A, B]⟩ .f32 0x00000000#32))
        (broadcastTo ⟨2, ![A, B]⟩ (shapeCast ⟨2, ![1, B]⟩ bias hc) hb) (ix2 a n)
      = Mlp.affine (fun k n => w (ix2 k n)) (fun n => bias (ix2 (0 : Fin 1) n)) (fun k => h (ix2 a k)) n := by
  rw [shapeCast_self, shapeCast_self, addf_apply, broadcastTo_1b_ab_apply]
  show FloatOps.matmul (DotDims.plain A K B) none h w (constant ⟨2, ![A, B]⟩ .f32 0x00000000#32) (ix2 a n) + _ = _
  rw [Cert.Lib.MatmulPlain.matmul_plain_zero_apply]
  rfl

/-- The same under the rectifier: a hidden layer on row `a`. -/
theorem hidden_apply (h : FVec Ideal ⟨2, ![A, K]⟩ φ₁) (w : FVec Ideal ⟨2, ![K, B]⟩ φ₂) (bias : FVec Ideal ⟨2, ![1, B]⟩ .f32)
    (hw : (⟨2, ![K, B]⟩ : Shape).ShapeCasts ⟨2, ![K, B]⟩) (hc : (⟨2, ![1, B]⟩ : Shape).ShapeCasts ⟨2, ![1, B]⟩)
    (hb : (⟨2, ![1, B]⟩ : Shape).Broadcasts ⟨2, ![A, B]⟩) (a : Fin A) (n : Fin B) :
    maximumf (addf (matmul (DotDims.plain A K B) none h (shapeCast ⟨2, ![K, B]⟩ w hw) (constant ⟨2, ![A, B]⟩ .f32 0x00000000#32))
        (broadcastTo ⟨2, ![A, B]⟩ (shapeCast ⟨2, ![1, B]⟩ bias hc) hb))
        (broadcast ⟨2, ![A, B]⟩ (Scalar.ofBits (F := Ideal) .f32 0x00000000#32)) (ix2 a n)
      = Mlp.hidden (fun k n => w (ix2 k n)) (fun n => bias (ix2 (0 : Fin 1) n)) (fun k => h (ix2 a k)) n := by
  rw [maximumf_apply, affine_apply]
  rfl

/-- The head's product alone (its bias is added after the product is read back): the sum over the shared axis. -/
theorem product_apply (h : FVec Ideal ⟨2, ![A, K]⟩ φ₁) (w : FVec Ideal ⟨2, ![K, B]⟩ φ₂)
    (hw : (⟨2, ![K, B]⟩ : Shape).ShapeCasts ⟨2, ![K, B]⟩) (a : Fin A) (n : Fin B) :
    matmul (DotDims.plain A K B) none h (shapeCast ⟨2, ![K, B]⟩ w hw) (constant ⟨2, ![A, B]⟩ .f32 0x00000000#32) (ix2 a n)
      = ∑ k : Fin K, h (ix2 a k) * w (ix2 k n) := by
  rw [shapeCast_self]
  exact Cert.Lib.MatmulPlain.matmul_plain_zero_apply none h w a n

end Cert.KernelLayer

end
-- ==== Proof.KernelRow.lean ====
/-
  The kernel's body on one block, read at an entry.

  At a grid point the body loads a block of 16384 rows of `x`, the three hidden weight matrices (already signs, already
  in (in, out) layout), the head's weights and the four bias rows, and stores one 16384 × 10 block. Entry `(p, q)` of
  what it stores is the network of `MlpRow` on row `p` of the loaded `x` block: each hidden layer is a product into
  zero, the bias row repeated, the rectifier (`KernelLayer`); the roundings to bf16 on the way into a product are the
  identity on the extended reals; the head is a product into zero and the bias row added to it.
-/
import proofs.«141843_j48404281426021_2_alg».proof.Proof.Gen.KernelIdeal.Value
import proofs.«141843_j48404281426021_2_alg».proof.Proof.KernelLayer

noncomputable section

namespace Cert.KernelIdeal.Row

open Cert.KernelIdeal Cert.KernelIdeal.Gen Idealize.ShloMosaic Idealize.ShloMosaic.ValueIdx

/-- The three products' dimension numbers are the plain ones: rows × shared axis times shared axis × columns. -/
theorem dot1_eq : dot_S16384x196_S196x128_S16384x128_1_0_0_1_n_n = DotDims.plain 16384 196 128 := rfl
theorem dot2_eq : dot_S16384x128_S128x128_S16384x128_1_0_0_1_n_n = DotDims.plain 16384 128 128 := rfl
theorem dot3_eq : dot_S16384x128_S128x10_S16384x10_1_0_0_1_n_n = DotDims.plain 16384 128 10 := rfl

/-- The head's product at `(p, q)`: the sum over the last hidden layer's 128 units on row `p`, each times its weight
    into output `q`; the hidden layers nested as the body computes them. -/
theorem product_entry (P0 : Vec Ideal S16384x196 .f32) (P1 : Vec Ideal S196x128 .bf16) (P2 : Vec Ideal S1x128 .f32)
    (P3 : Vec Ideal S128x128 .bf16) (P4 : Vec Ideal S1x128 .f32) (P5 : Vec Ideal S128x128 .bf16) (P6 : Vec Ideal S1x128 .f32)
    (P7 : Vec Ideal S128x10 .f32) (p : Fin 16384) (q : Fin 10) :
    k0_pay2 P0 P1 P2 P3 P4 P5 P6 P7 (ix2 p q)
      = ∑ k : Fin 128, Mlp.hidden (fun k n => P5 (ix2 k n)) (fun n => P6 (ix2 (0 : Fin 1) n))
          (Mlp.hidden (fun k n => P3 (ix2 k n)) (fun n => P4 (ix2 (0 : Fin 1) n))
            (Mlp.hidden (fun k n => P1 (ix2 k n)) (fun n => P2 (ix2 (0 : Fin 1) n)) (fun k => P0 (ix2 p k)))) k * P7 (ix2 k q) := by
  unfold k0_pay2
  rw [dot1_eq, dot2_eq, dot3_eq]
  refine (Cert.KernelLayer.product_apply _ _ _ p q).trans ?_
  simp only [Cert.KernelLayer.hidden_apply, truncf_apply]

/-- Entry `(p, q)` of the block the body leaves: the network on row `p` of the loaded blocks. -/
theorem block_entry (P0 : Vec Ideal S16384x196 .f32) (P1 : Vec Ideal S196x128 .bf16) (P2 : Vec Ideal S1x128 .f32)
    (P3 : Vec Ideal S128x128 .bf16) (P4 : Vec Ideal S1x128 .f32) (P5 : Vec Ideal S128x128 .bf16) (P6 : Vec Ideal S1x128 .f32)
    (P7 : Vec Ideal S128x10 .f32) (P8 : Vec Ideal S1x10 .f32) (p : Fin 16384) (q : Fin 10) :
    Value.E9 P0 P1 P2 P3 P4 P5 P6 P7 P8 (ix2 p q)
      = Mlp.row (fun k => P0 (ix2 p k)) (fun k n => P1 (ix2 k n)) (fun n => P2 (ix2 (0 : Fin 1) n))
          (fun k n => P3 (ix2 k n)) (fun n => P4 (ix2 (0 : Fin 1) n)) (fun k n => P5 (ix2 k n)) (fun n => P6 (ix2 (0 : Fin 1) n))
          (fun k n => P7 (ix2 k n)) (fun n => P8 (ix2 (0 : Fin 1) n)) q := by
  have e0 : Value.ix9_0 (ix2 p q) = ix2 p q := funext fun a => by match a with | ⟨0, _⟩ => rfl | ⟨1, _⟩ => rfl
  have e1 : Value.ix9_1 (ix2 p q) = ix2 (0 : Fin 1) q := funext fun a => by match a with | ⟨0, _⟩ => rfl | ⟨1, _⟩ => rfl
  show k0_pay2 P0 P1 P2 P3 P4 P5 P6 P7 (Value.ix9_0 (ix2 p q)) + P8 (Value.ix9_1 (ix2 p q)) = _
  rw [e0, e1, product_entry]
  rfl

theorem zero_offsets : (![0, 0] : Fin 2 → Nat) = fun _ => 0 := funext fun a => by fin_cases a <;> rfl

/-- What a grid point's body leaves in the output's staging buffer, from the contents `x0 … x8` of the input staging
    buffers: at the index whose coordinates are `p` and `q`, the network on row `p` of `x0`. -/
theorem point_entry (x0 : Vec Ideal S16384x196 .f32) (x1 : Vec Ideal S196x128 .bf16) (x2 : Vec Ideal S1x128 .f32)
    (x3 : Vec Ideal S128x128 .bf16) (x4 : Vec Ideal S1x128 .f32) (x5 : Vec Ideal S128x128 .bf16) (x6 : Vec Ideal S1x128 .f32)
    (x7 : Vec Ideal S128x10 .f32) (x8 : Vec Ideal S1x10 .f32) (y : S16384x10.Idx) (p : Fin 16384) (q : Fin 10)
    (hp : (y 0).val = p.val) (hq : (y 1).val = q.val) :
    out0_9 x0 x1 x2 x3 x4 x5 x6 x7 x8 y
      = Mlp.row (fun k => x0 (ix2 p k)) (fun k n => x1 (ix2 k n)) (fun n => x2 (ix2 (0 : Fin 1) n))
          (fun k n => x3 (ix2 k n)) (fun n => x4 (ix2 (0 : Fin 1) n)) (fun k n => x5 (ix2 k n)) (fun n => x6 (ix2 (0 : Fin 1) n))
          (fun k n => x7 (ix2 k n)) (fun n => x8 (ix2 (0 : Fin 1) n)) q := by
  obtain rfl : y = ix2 p q := funext fun a => Fin.ext (by match a with | ⟨0, _⟩ => exact hp | ⟨1, _⟩ => exact hq)
  unfold out0_9
  rw [Value.canon9_eq]
  simp only [View.ld_unit_zero (S := S16384x196) zero_offsets, View.ld_unit_zero (S := S196x128) zero_offsets,
    View.ld_unit_zero (S := S1x128) zero_offsets, View.ld_unit_zero (S := S128x128) zero_offsets,
    View.ld_unit_zero (S := S128x10) zero_offsets, View.ld_unit_zero (S := S1x10) zero_offsets]
  exact block_entry x0 x1 x2 x3 x4 x5 x6 x7 x8 p q

end Cert.KernelIdeal.Row

end
-- ==== Proof.BlockArrays.lean ====
/-
  What each input window's block holds at a grid point, in terms of the argument arrays.

  The grid has 32 points along the batch. At point `t` the `x` window's block is rows `16384 t … 16384 t + 16383` of
  `x`; every other window's block is its whole array at every point (its block index is zero on both axes). Those
  arrays are written by the host before the region: a hidden weight matrix `W` arrives as `sign W` transposed to
  (in, out) layout and rounded to bf16 (the identity on the extended reals), the head's `W4` transposed, and each bias
  vector recast as a one-row matrix. So an entry of a block is an entry of an argument, or its sign.
-/
import proofs.«141843_j48404281426021_2_alg».proof.Proof.Gen.KernelIdeal.Frame
import Idealize.ShloMosaic.Lib.ValueLayout
import Idealize.ShloMosaic.Lib.StableHlo.Run
import Idealize.ShloMosaic.PureOps.Ideal.Laws

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The windows' block indices, decided over the 32 points -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)

/-! ## The arrays the host prefix writes, as terms of the arguments -/

theorem V_v2 (c : Dev nD) : (V m c main_v2 : S196x128.Idx → EReal)
    = truncf .bf16 (transpose S196x128 [1, 0] (Host.sign (F := Ideal) (m ((c : Thread nD τ).loc main_arg1))) Facts₀.transposes_S128x196_S196x128_1_0) Facts₀.bitsLt_bf16_f32 := by
  dsimp only [Gen.V, Gen.hostOps0]; after_results <;> rfl

theorem V_v5 (c : Dev nD) : (V m c main_v5 : S128x128.Idx → EReal)
    = truncf .bf16 (transpose S128x128 [1, 0] (Host.sign (F := Ideal) (m ((c : Thread nD τ).loc main_arg3))) Facts₀.transposes_S128x128_S128x128_1_0) Facts₀.bitsLt_bf16_f32 := by
  dsimp only [Gen.V, Gen.hostOps0]; after_results <;> rfl

theorem V_v8 (c : Dev nD) : (V m c main_v8 : S128x128.Idx → EReal)
    = truncf .bf16 (transpose S128x128 [1, 0] (Host.sign (F := Ideal) (m ((c : Thread nD τ).loc main_arg5))) Facts₀.transposes_S128x128_S128x128_1_0) Facts₀.bitsLt_bf16_f32 := by
  dsimp only [Gen.V, Gen.hostOps0]; after_results <;> rfl

theorem V_v9 (c : Dev nD) : (V m c main_v9 : S128x10.Idx → EReal)
    = transpose S128x10 [1, 0] (m ((c : Thread nD τ).loc main_arg7)) Facts₀.transposes_S10x128_S128x10_1_0 := by
  dsimp only [Gen.V, Gen.hostOps0]; after_results <;> rfl

theorem V_v10 (c : Dev nD) : (V m c main_v10 : S1x128.Idx → EReal)
    = shapeCast S1x128 (m ((c : Thread nD τ).loc main_arg2)) Facts₀.shapeCasts_S128_S1x128 := by
  dsimp only [Gen.V, Gen.hostOps0]; after_results <;> rfl

theorem V_v11 (c : Dev nD) : (V m c main_v11 : S1x128.Idx → EReal)
    = shapeCast S1x128 (m ((c : Thread nD τ).loc main_arg4)) Facts₀.shapeCasts_S128_S1x128 := by
  dsimp only [Gen.V, Gen.hostOps0]; after_results <;> rfl

theorem V_v12 (c : Dev nD) : (V m c main_v12 : S1x128.Idx → EReal)
    = shapeCast S1x128 (m ((c : Thread nD τ).loc main_arg6)) Facts₀.shapeCasts_S128_S1x128 := by
  dsimp only [Gen.V, Gen.hostOps0]; after_results <;> rfl

theorem V_v13 (c : Dev nD) : (V m c main_v13 : S1x10.Idx → EReal)
    = shapeCast S1x10 (m ((c : Thread nD τ).loc main_arg8)) Facts₀.shapeCasts_S10_S1x10 := by
  dsimp only [Gen.V, Gen.hostOps0]; after_results <;> rfl

/-! ## Each block read at coordinates -/

/-- The `x` block at point `t`: row `p` of the block is row `16384 t + p` of `x`. -/
theorem iblk0_apply (c : Dev nD) (t : Fin cfg0.N) (p : Fin 16384) (k : Fin 196) (r : Fin 524288)
    (hr : r.val = t.val * 16384 + p.val) :
    (iblk m c 0 t : Vec Ideal S16384x196 .f32) (ix2 p k)
      = (m ((c : Thread nD τ).loc main_arg0) : S524288x196.Idx → EReal) (ix2 r k) := by
  obtain ⟨h0, h1⟩ := index0 t
  unfold iblk
  rw [View.read_apply]
  show V m c main_arg0 (((cfg0.win 0).blk t).view.emb (ix2 p k)) = _
  have he : ((cfg0.win 0).blk t).view.emb (ix2 p k) = ix2 r k := by
    funext a; apply Fin.ext
    match a with
    | ⟨0, _⟩ => show win0_0.index t (0 : Fin 2) * 16384 + 1 * p.val = r.val; rw [h0, hr]; omega
    | ⟨1, _⟩ => show win0_0.index t (1 : Fin 2) * 196 + 1 * k.val = k.val; rw [h1]; omega
  rw [he, V_main_arg0]

/-- The first hidden layer's weights, in (in, out) layout: the sign of `W1` at the transposed position. -/
theorem iblk1_apply (c : Dev nD) (t : Fin cfg0.N) (k : Fin 196) (n : Fin 128) :
    (iblk m c 1 t : Vec Ideal S196x128 .bf16) (ix2 k n)
      = Ideal.sign ((m ((c : Thread nD τ).loc main_arg1) : S128x196.Idx → EReal) (ix2 n k)) := by
  obtain ⟨h0, h1⟩ := index1 t
  unfold iblk
  rw [View.read_apply]
  show V m c main_v2 (((cfg0.win 1).blk t).view.emb (ix2 k n)) = _
  have he : ((cfg0.win 1).blk t).view.emb (ix2 k n) = ix2 k n := by
    funext a; apply Fin.ext
    match a with
    | ⟨0, _⟩ => show win0_1.index t (0 : Fin 2) * 196 + 1 * k.val = k.val; rw [h0]; omega
    | ⟨1, _⟩ => show win0_1.index t (1 : Fin 2) * 128 + 1 * n.val = n.val; rw [h1]; omega
  rw [he, V_v2]
  rw [truncf_apply, transpose_ix2_apply]
  rfl

/-- The first bias, as a one-row matrix. -/
theorem iblk2_apply (c : Dev nD) (t : Fin cfg0.N) (n : Fin 128) :
    (iblk m c 2 t : Vec Ideal S1x128 .f32) (ix2 (0 : Fin 1) n)
      = (m ((c : Thread nD τ).loc main_arg2) : S128.Idx → EReal) (ix1 n) := by
  obtain ⟨h0, h1⟩ := index2 t
  unfold iblk
  rw [View.read_apply]
  show V m c main_v10 (((cfg0.win 2).blk t).view.emb (ix2 (0 : Fin 1) n)) = _
  have he : ((cfg0.win 2).blk t).view.emb (ix2 (0 : Fin 1) n) = ix2 (0 : Fin 1) n := by
    funext a; apply Fin.ext
    match a with
    | ⟨0, _⟩ => show win0_2.index t (0 : Fin 2) * 1 + 1 * 0 = 0; rw [h0]
    | ⟨1, _⟩ => show win0_2.index t (1 : Fin 2) * 128 + 1 * n.val = n.val; rw [h1]; omega
  rw [he, V_v10]
  exact shapeCast_a_1a_apply _ _ _ _

/-- The second hidden layer's weights: the sign of `W2` at the transposed position. -/
theorem iblk3_apply (c : Dev nD) (t : Fin cfg0.N) (k : Fin 128) (n : Fin 128) :
    (iblk m c 3 t : Vec Ideal S128x128 .bf16) (ix2 k n)
      = Ideal.sign ((m ((c : Thread nD τ).loc main_arg3) : S128x128.Idx → EReal) (ix2 n k)) := by
  obtain ⟨h0, h1⟩ := index3 t
  unfold iblk
  rw [View.read_apply]
  show V m c main_v5 (((cfg0.win 3).blk t).view.emb (ix2 k n)) = _
  have he : ((cfg0.win 3).blk t).view.emb (ix2 k n) = ix2 k n := by
    funext a; apply Fin.ext
    match a with
    | ⟨0, _⟩ => show win0_3.index t (0 : Fin 2) * 128 + 1 * k.val = k.val; rw [h0]; omega
    | ⟨1, _⟩ => show win0_3.index t (1 : Fin 2) * 128 + 1 * n.val = n.val; rw [h1]; omega
  rw [he, V_v5]
  rw [truncf_apply, transpose_ix2_apply]
  rfl

/-- The second bias. -/
theorem iblk4_apply (c : Dev nD) (t : Fin cfg0.N) (n : Fin 128) :
    (iblk m c 4 t : Vec Ideal S1x128 .f32) (ix2 (0 : Fin 1) n)
      = (m ((c : Thread nD τ).loc main_arg4) : S128.Idx → EReal) (ix1 n) := by
  obtain ⟨h0, h1⟩ := index4 t
  unfold iblk
  rw [View.read_apply]
  show V m c main_v11 (((cfg0.win 4).blk t).view.emb (ix2 (0 : Fin 1) n)) = _
  have he : ((cfg0.win 4).blk t).view.emb (ix2 (0 : Fin 1) n) = ix2 (0 : Fin 1) n := by
    funext a; apply Fin.ext
    match a with
    | ⟨0, _⟩ => show win0_4.index t (0 : Fin 2) * 1 + 1 * 0 = 0; rw [h0]
    | ⟨1, _⟩ => show win0_4.index t (1 : Fin 2) * 128 + 1 * n.val = n.val; rw [h1]; omega
  rw [he, V_v11]
  exact shapeCast_a_1a_apply _ _ _ _

/-- The third hidden layer's weights: the sign of `W3` at the transposed position. -/
theorem iblk5_apply (c : Dev nD) (t : Fin cfg0.N) (k : Fin 128) (n : Fin 128) :
    (iblk m c 5 t : Vec Ideal S128x128 .bf16) (ix2 k n)
      = Ideal.sign ((m ((c : Thread nD τ).loc main_arg5) : S128x128.Idx → EReal) (ix2 n k)) := by
  obtain ⟨h0, h1⟩ := index5 t
  unfold iblk
  rw [View.read_apply]
  show V m c main_v8 (((cfg0.win 5).blk t).view.emb (ix2 k n)) = _
  have he : ((cfg0.win 5).blk t).view.emb (ix2 k n) = ix2 k n := by
    funext a; apply Fin.ext
    match a with
    | ⟨0, _⟩ => show win0_5.index t (0 : Fin 2) * 128 + 1 * k.val = k.val; rw [h0]; omega
    | ⟨1, _⟩ => show win0_5.index t (1 : Fin 2) * 128 + 1 * n.val = n.val; rw [h1]; omega
  rw [he, V_v8]
  rw [truncf_apply, transpose_ix2_apply]
  rfl

/-- The third bias. -/
theorem iblk6_apply (c : Dev nD) (t : Fin cfg0.N) (n : Fin 128) :
    (iblk m c 6 t : Vec Ideal S1x128 .f32) (ix2 (0 : Fin 1) n)
      = (m ((c : Thread nD τ).loc main_arg6) : S128.Idx → EReal) (ix1 n) := by
  obtain ⟨h0, h1⟩ := index6 t
  unfold iblk
  rw [View.read_apply]
  show V m c main_v12 (((cfg0.win 6).blk t).view.emb (ix2 (0 : Fin 1) n)) = _
  have he : ((cfg0.win 6).blk t).view.emb (ix2 (0 : Fin 1) n) = ix2 (0 : Fin 1) n := by
    funext a; apply Fin.ext
    match a with
    | ⟨0, _⟩ => show win0_6.index t (0 : Fin 2) * 1 + 1 * 0 = 0; rw [h0]
    | ⟨1, _⟩ => show win0_6.index t (1 : Fin 2) * 128 + 1 * n.val = n.val; rw [h1]; omega
  rw [he, V_v12]
  exact shapeCast_a_1a_apply _ _ _ _

/-- The head's weights, in (in, out) layout: `W4` at the transposed position. -/
theorem iblk7_apply (c : Dev nD) (t : Fin cfg0.N) (k : Fin 128) (n : Fin 10) :
    (iblk m c 7 t : Vec Ideal S128x10 .f32) (ix2 k n)
      = (m ((c : Thread nD τ).loc main_arg7) : S10x128.Idx → EReal) (ix2 n k) := by
  obtain ⟨h0, h1⟩ := index7 t
  unfold iblk
  rw [View.read_apply]
  show V m c main_v9 (((cfg0.win 7).blk t).view.emb (ix2 k n)) = _
  have he : ((cfg0.win 7).blk t).view.emb (ix2 k n) = ix2 k n := by
    funext a; apply Fin.ext
    match a with
    | ⟨0, _⟩ => show win0_7.index t (0 : Fin 2) * 128 + 1 * k.val = k.val; rw [h0]; omega
    | ⟨1, _⟩ => show win0_7.index t (1 : Fin 2) * 10 + 1 * n.val = n.val; rw [h1]; omega
  rw [he, V_v9]
  exact transpose_ix2_apply _ _ _ _

/-- The head's bias. -/
theorem iblk8_apply (c : Dev nD) (t : Fin cfg0.N) (n : Fin 10) :
    (iblk m c 8 t : Vec Ideal S1x10 .f32) (ix2 (0 : Fin 1) n)
      = (m ((c : Thread nD τ).loc main_arg8) : S10.Idx → EReal) (ix1 n) := by
  obtain ⟨h0, h1⟩ := index8 t
  unfold iblk
  rw [View.read_apply]
  show V m c main_v13 (((cfg0.win 8).blk t).view.emb (ix2 (0 : Fin 1) n)) = _
  have he : ((cfg0.win 8).blk t).view.emb (ix2 (0 : Fin 1) n) = ix2 (0 : Fin 1) n := by
    funext a; apply Fin.ext
    match a with
    | ⟨0, _⟩ => show win0_8.index t (0 : Fin 2) * 1 + 1 * 0 = 0; rw [h0]
    | ⟨1, _⟩ => show win0_8.index t (1 : Fin 2) * 10 + 1 * n.val = n.val; rw [h1]; omega
  rw [he, V_v13]
  exact shapeCast_a_1a_apply _ _ _ _

end Cert.KernelIdeal.Arrays

end
-- ==== Proof.Network.lean ====
/-
  The result array as ONE function of the argument arrays.

  For `x : [524288, 196]`, hidden weights `W1 : [128, 196]`, `W2, W3 : [128, 128]` (out, in), biases of 128, a head
  `W4 : [10, 128]` with a bias of 10: entry `(r, j)` of the result is the network of `MlpRow` on row `r` of `x`,
  the hidden layers' weights being the SIGNS of `W1`, `W2`, `W3` read at the transposed position (the row function takes
  weights in (in, out) layout), the head's being `W4` itself at the transposed position.
-/
import Idealize.ShloMosaic.Lib.ValueIdx
import proofs.«141843_j48404281426021_2_alg».proof.Proof.MlpRow

noncomputable section

namespace Cert.Net

open Idealize.ShloMosaic Idealize.ShloMosaic.ValueIdx

/-- Every entry of an array is a real number: neither infinity. -/
def Finite {s : Shape} (x : s.Idx → EReal) : Prop := ∀ i, x i ≠ ⊤ ∧ x i ≠ ⊥

/-- Entry `(r, j)` of the result. -/
def entry (x : (⟨2, ![524288, 196]⟩ : Shape).Idx → EReal)
    (W1 : (⟨2, ![128, 196]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![10, 128]⟩ : Shape).Idx → EReal) (b4 : (⟨1, ![10]⟩ : Shape).Idx → EReal)
    (r : Fin 524288) (j : Fin 10) : EReal :=
  Mlp.row (fun k => x (ix2 r k))
    (fun k n => Ideal.sign (W1 (ix2 n k))) (fun n => b1 (ix1 n))
    (fun k n => Ideal.sign (W2 (ix2 n k))) (fun n => b2 (ix1 n))
    (fun k n => Ideal.sign (W3 (ix2 n k))) (fun n => b3 (ix1 n))
    (fun k n => W4 (ix2 n k)) (fun n => b4 (ix1 n)) j

/-- The result array: `entry` at an index's two coordinates. -/
def result (x : (⟨2, ![524288, 196]⟩ : Shape).Idx → EReal)
    (W1 : (⟨2, ![128, 196]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![10, 128]⟩ : Shape).Idx → EReal) (b4 : (⟨1, ![10]⟩ : Shape).Idx → EReal) :
    (⟨2, ![524288, 10]⟩ : Shape).Idx → EReal :=
  fun i => entry x W1 b1 W2 b2 W3 b3 W4 b4 ⟨(i 0).val, idx2_lt0 i⟩ ⟨(i 1).val, idx2_lt1 i⟩

/-- The result at an index whose coordinates are `r` and `j`. -/
theorem result_apply (x : (⟨2, ![524288, 196]⟩ : Shape).Idx → EReal)
    (W1 : (⟨2, ![128, 196]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![10, 128]⟩ : Shape).Idx → EReal) (b4 : (⟨1, ![10]⟩ : Shape).Idx → EReal)
    (i : (⟨2, ![524288, 10]⟩ : Shape).Idx) (r : Fin 524288) (j : Fin 10) (hr : (i 0).val = r.val) (hj : (i 1).val = j.val) :
    result x W1 b1 W2 b2 W3 b3 W4 b4 i = entry x W1 b1 W2 b2 W3 b3 W4 b4 r j := by
  unfold result
  congr 1 <;> exact Fin.ext (by assumption)

end Cert.Net

end
-- ==== Proof.Blocks.lean ====
/-
  From the blocks to the whole array.

  At grid point `t` the kernel writes back a 16384 × 10 block of the result: rows `16384 t … 16384 t + 16383`. Entry
  `(p, q)` of what it writes is the network on row `p` of the `x` block (`KernelRow`), whose rows are rows
  `16384 t + p` of `x` and whose other operands are the signs of the hidden weights, the head's weights and the biases
  (`BlockArrays`): so it is entry `(16384 t + p, q)` of the network's result array. The 32 blocks tile the 524288
  rows (the block of row `r` is the one at point `r / 16384`), hence after the run the array IS the result array.
-/
import proofs.«141843_j48404281426021_2_alg».proof.Proof.Gen.KernelIdeal.Value
import proofs.«141843_j48404281426021_2_alg».proof.Proof.KernelRow
import proofs.«141843_j48404281426021_2_alg».proof.Proof.BlockArrays
import proofs.«141843_j48404281426021_2_alg».proof.Proof.Network

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The network's result array of core `c`'s argument arrays. -/
def G (c : Dev nD) : S524288x10.Idx → EReal :=
  Net.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem G_apply (c : Dev nD) (i : S524288x10.Idx) (r : Fin 524288) (j : Fin 10) (hr : (i 0).val = r.val) (hj : (i 1).val = j.val) :
    G m c i = Net.entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r j :=
  Net.result_apply _ _ _ _ _ _ _ _ _ i r j hr hj

/-- WHAT POINT `t` WRITES BACK is block `t` of the result array. -/
theorem flushed_eq (c : Dev nD) (t : Fin cfg0.N) :
    (dats m 0 c).flushed 9 t = ((cfg0.win 9).blk t).view.read (Elt Ideal) (G m c) := by
  obtain ⟨h0, h1⟩ := Arrays.index9 t
  have ht : t.val < 32 := by have h := t.isLt; have hN : cfg0.N = 32 := N_0; omega
  rw [Value.flushed9]
  refine funext fun (y : S16384x10.Idx) => ?_
  show out0_9 (iblk m c 0 t) (iblk m c 1 t) (iblk m c 2 t) (iblk m c 3 t) (iblk m c 4 t) (iblk m c 5 t) (iblk m c 6 t) (iblk m c 7 t) (iblk m c 8 t) y = G m c (((cfg0.win 9).blk t).view.emb y)
  have hy0 : (y 0).val < 16384 := (y 0).isLt
  have hy1 : (y 1).val < 10 := (y 1).isLt
  have hr : ((((cfg0.win 9).blk t).view.emb y) 0).val = t.val * 16384 + (y 0).val := by
    show win0_9.index t (0 : Fin 2) * 16384 + 1 * (y 0).val = _; rw [h0]; omega
  have hj : ((((cfg0.win 9).blk t).view.emb y) 1).val = (y 1).val := by
    show win0_9.index t (1 : Fin 2) * 10 + 1 * (y 1).val = _; rw [h1]; omega
  rw [G_apply m c _ (⟨t.val * 16384 + (y 0).val, by omega⟩ : Fin 524288) (⟨(y 1).val, hy1⟩ : Fin 10) hr hj]
  refine (Row.point_entry (iblk m c 0 t) (iblk m c 1 t) (iblk m c 2 t) (iblk m c 3 t) (iblk m c 4 t) (iblk m c 5 t) (iblk m c 6 t) (iblk m c 7 t) (iblk m c 8 t) y ⟨(y 0).val, hy0⟩ ⟨(y 1).val, hy1⟩ rfl rfl).trans ?_
  have e0 : ∀ k : Fin 196, (iblk m c 0 t : Vec Ideal S16384x196 .f32) (ix2 (⟨(y 0).val, hy0⟩ : Fin 16384) k)
      = (m ((c : Thread nD τ).loc main_arg0) : S524288x196.Idx → EReal) (ix2 (⟨t.val * 16384 + (y 0).val, by omega⟩ : Fin 524288) k) :=
    fun k => Arrays.iblk0_apply m c t _ k _ rfl
  simp only [e0, Arrays.iblk1_apply m c t, Arrays.iblk2_apply m c t, Arrays.iblk3_apply m c t, Arrays.iblk4_apply m c t,
    Arrays.iblk5_apply m c t, Arrays.iblk6_apply m c t, Arrays.iblk7_apply m c t, Arrays.iblk8_apply m c t]
  rfl

/-- An index of the result is in point `t`'s block iff each coordinate is in the block's range on its axis. -/
theorem mem_blk (t : Fin cfg0.N) (i : S524288x10.Idx) :
    i ∈ ((cfg0.win 9).blk t).view.set ↔ ∀ a : Fin 2, win0_9.index t a * S16384x10.size a ≤ (i a).val ∧ (i a).val < win0_9.index t a * S16384x10.size a + S16384x10.size a := by
  show i ∈ ((View.whole main_v14).slice (win0_9.rect t)).set ↔ _
  rw [View.set_slice_whole, Rect.mem_set_unit]
  exact Iff.rfl

/-- Every index of the result is in some point's block: row `r` in the block of point `r / 16384`. -/
theorem cover (i : S524288x10.Idx) : ∃ t : Fin cfg0.N, (cfg0.win 9).flush t = true ∧ i ∈ ((cfg0.win 9).blk t).view.set := by
  have hi0 : (i 0).val < 524288 := (i 0).isLt
  have hi1 : (i 1).val < 10 := (i 1).isLt
  obtain ⟨t, ht⟩ : ∃ t : Fin cfg0.N, t.val = (i 0).val / 16384 :=
    ⟨⟨(i 0).val / 16384, by have hN : cfg0.N = 32 := N_0; omega⟩, rfl⟩
  obtain ⟨h0, h1⟩ := Arrays.index9 t
  refine ⟨t, flush0_9 t, ?_⟩
  rw [mem_blk]
  intro a
  match a with
  | ⟨0, _⟩ =>
    show win0_9.index t (0 : Fin 2) * 16384 ≤ (i 0).val ∧ (i 0).val < win0_9.index t (0 : Fin 2) * 16384 + 16384
    rw [h0, ht]; omega
  | ⟨1, _⟩ =>
    show win0_9.index t (1 : Fin 2) * 10 ≤ (i 1).val ∧ (i 1).val < win0_9.index t (1 : Fin 2) * 10 + 10
    rw [h1]; omega

/-- THE ARRAY after the run is the network's result array. -/
theorem final (c : Dev nD) : (dats m 0 c).arrAt 9 cfg0.N = G m c :=
  (dats m 0 c).arrAt_eq_of_cover 9 (G m c) (fun t _ => flushed_eq m c t) cover

/-- The run, read: the result array at the network's result of the arguments, the arguments unchanged. -/
theorem run : θ_run defs (onTc (τ := τ) (main (F := Ideal))) ⟨m, fun _ => 0, ρ⟩ fun r => ∀ c : Dev nD,
      r.2.mem ((c : Thread nD τ).loc main_v14) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefRow.lean ====
/-
  The reference's result is the network's result array, when the hidden weights are finite.

  The reference binarizes a hidden weight matrix as `W + (sign W - W)`, transposes it, multiplies the activations by
  it (a sum over the shared axis), adds the bias repeated down the rows and rectifies; the head does the same with
  `W4` itself and no rectifier. Read at entry `(r, n)`, each layer is the row function's layer on row `r` of the layer
  below — once `W + (sign W - W)` is `sign W`, which is where the finiteness of `W1`, `W2`, `W3` is used.
-/
import proofs.«141843_j48404281426021_2_alg».proof.Proof.Gen.ReferenceIdeal.Read
import proofs.«141843_j48404281426021_2_alg».proof.Proof.Network

noncomputable section

namespace Cert.ReferenceIdeal.RefNet

open Cert.ReferenceIdeal Cert.ReferenceIdeal.Read Idealize.ShloMosaic Idealize.ShloMosaic.ValueIdx

/-! ## The operations' index maps at coordinates -/

theorem idx3 (k : Fin 196) (n : Fin 128) : idx_main_v3 (ix2 k n) = ix2 n k := funext fun a => by match a with | ⟨0, _⟩ => rfl | ⟨1, _⟩ => rfl
theorem lidx4 (r : Fin 524288) (n : Fin 128) (k : Fin 196) : lidx_main_v4 (ix2 r n) k = ix2 r k := funext fun a => by match a with | ⟨0, _⟩ => rfl | ⟨1, _⟩ => rfl
theorem ridx4 (r : Fin 524288) (n : Fin 128) (k : Fin 196) : ridx_main_v4 (ix2 r n) k = ix2 k n := funext fun a => by match a with | ⟨0, _⟩ => rfl | ⟨1, _⟩ => rfl
theorem idx56 (r : Fin 524288) (n : Fin 128) : idx_main_v5 (idx_main_v6 (ix2 r n)) = ix1 n := funext fun a => by match a with | ⟨0, _⟩ => rfl
theorem idx12 (k n : Fin 128) : idx_main_v12 (ix2 k n) = ix2 n k := funext fun a => by match a with | ⟨0, _⟩ => rfl | ⟨1, _⟩ => rfl
theorem lidx13 (r : Fin 524288) (n k : Fin 128) : lidx_main_v13 (ix2 r n) k = ix2 r k := funext fun a => by match a with | ⟨0, _⟩ => rfl | ⟨1, _⟩ => rfl
theorem ridx13 (r : Fin 524288) (n k : Fin 128) : ridx_main_v13 (ix2 r n) k = ix2 k n := funext fun a => by match a with | ⟨0, _⟩ => rfl | ⟨1, _⟩ => rfl
theorem idx1415 (r : Fin 524288) (n : Fin 128) : idx_main_v14 (idx_main_v15 (ix2 r n)) = ix1 n := funext fun a => by match a with | ⟨0, _⟩ => rfl
theorem idx21 (k n : Fin 128) : idx_main_v21 (ix2 k n) = ix2 n k := funext fun a => by match a with | ⟨0, _⟩ => rfl | ⟨1, _⟩ => rfl
theorem lidx22 (r : Fin 524288) (n k : Fin 128) : lidx_main_v22 (ix2 r n) k = ix2 r k := funext fun a => by match a with | ⟨0, _⟩ => rfl | ⟨1, _⟩ => rfl
theorem ridx22 (r : Fin 524288) (n k : Fin 128) : ridx_main_v22 (ix2 r n) k = ix2 k n := funext fun a => by match a with | ⟨0, _⟩ => rfl | ⟨1, _⟩ => rfl
theorem idx2324 (r : Fin 524288) (n : Fin 128) : idx_main_v23 (idx_main_v24 (ix2 r n)) = ix1 n := funext fun a => by match a with | ⟨0, _⟩ => rfl
theorem idx27 (k : Fin 128) (j : Fin 10) : idx_main_v27 (ix2 k j) = ix2 j k := funext fun a => by match a with | ⟨0, _⟩ => rfl | ⟨1, _⟩ => rfl
theorem lidx28 (r : Fin 524288) (j : Fin 10) (k : Fin 128) : lidx_main_v28 (ix2 r j) k = ix2 r k := funext fun a => by match a with | ⟨0, _⟩ => rfl | ⟨1, _⟩ => rfl
theorem ridx28 (r : Fin 524288) (j : Fin 10) (k : Fin 128) : ridx_main_v28 (ix2 r j) k = ix2 k j := funext fun a => by match a with | ⟨0, _⟩ => rfl | ⟨1, _⟩ => rfl
theorem idx2930 (r : Fin 524288) (j : Fin 10) : idx_main_v29 (idx_main_v30 (ix2 r j)) = ix1 j := funext fun a => by match a with | ⟨0, _⟩ => rfl

/-! ## The binarized, transposed weights: signs at the transposed position -/

theorem weights1 (x1 : (⟨S128x196, .f32⟩ : BufTy).Contents (Elt Ideal)) (h : Net.Finite (s := S128x196) x1) (k : Fin 196) (n : Fin 128) :
    val_main_v3 (F := Ideal) x1 (ix2 k n) = Ideal.sign (x1 (ix2 n k)) := by
  rw [val_main_v3_apply, idx3, val_main_v2_apply, val_main_v1_apply, val_main_v0_apply]
  exact Mlp.add_sign_sub_self (h _).1 (h _).2

theorem weights2 (x3 : (⟨S128x128, .f32⟩ : BufTy).Contents (Elt Ideal)) (h : Net.Finite (s := S128x128) x3) (k n : Fin 128) :
    val_main_v12 (F := Ideal) x3 (ix2 k n) = Ideal.sign (x3 (ix2 n k)) := by
  rw [val_main_v12_apply, idx12, val_main_v11_apply, val_main_v10_apply, val_main_v9_apply]
  exact Mlp.add_sign_sub_self (h _).1 (h _).2

theorem weights3 (x5 : (⟨S128x128, .f32⟩ : BufTy).Contents (Elt Ideal)) (h : Net.Finite (s := S128x128) x5) (k n : Fin 128) :
    val_main_v21 (F := Ideal) x5 (ix2 k n) = Ideal.sign (x5 (ix2 n k)) := by
  rw [val_main_v21_apply, idx21, val_main_v20_apply, val_main_v19_apply, val_main_v18_apply]
  exact Mlp.add_sign_sub_self (h _).1 (h _).2

/-! ## The layers at an entry -/

theorem layer1 (x0 : (⟨S524288x196, .f32⟩ : BufTy).Contents (Elt Ideal)) (x1 : (⟨S128x196, .f32⟩ : BufTy).Contents (Elt Ideal)) (x2 : (⟨S128, .f32⟩ : BufTy).Contents (Elt Ideal)) (h1 : Net.Finite (s := S128x196) x1) (r : Fin 524288) (n : Fin 128) :
    val_main_v8 (F := Ideal) x0 x1 x2 (ix2 r n)
      = Mlp.hidden (fun k n => Ideal.sign (x1 (ix2 n k))) (fun n => x2 (ix1 n)) (fun k => x0 (ix2 r k)) n := by
  rw [val_main_v8_apply, val_main_v7_apply, val_main_v4_apply, val_main_v6_apply, val_main_v5_apply,
    val_main_call0_v0_apply, val_main_call0_cst_apply]
  simp only [lidx4, ridx4, idx56, weights1 x1 h1]
  rfl

theorem layer2 (x0 : (⟨S524288x196, .f32⟩ : BufTy).Contents (Elt Ideal)) (x1 : (⟨S128x196, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (h3 : Net.Finite (s := S128x128) x3) (r : Fin 524288) (n : Fin 128) :
    val_main_v17 (F := Ideal) x0 x1 x2 x3 x4 (ix2 r n)
      = Mlp.hidden (fun k n => Ideal.sign (x3 (ix2 n k))) (fun n => x4 (ix1 n)) (fun k => val_main_v8 (F := Ideal) x0 x1 x2 (ix2 r k)) n := by
  rw [val_main_v17_apply, val_main_v16_apply, val_main_v13_apply, val_main_v15_apply, val_main_v14_apply,
    val_main_call1_v0_apply, val_main_call1_cst_apply]
  simp only [lidx13, ridx13, idx1415, weights2 x3 h3]
  rfl

theorem layer3 (x0 : (⟨S524288x196, .f32⟩ : BufTy).Contents (Elt Ideal)) (x1 : (⟨S128x196, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (h5 : Net.Finite (s := S128x128) x5) (r : Fin 524288) (n : Fin 128) :
    val_main_v26 (F := Ideal) x0 x1 x2 x3 x4 x5 x6 (ix2 r n)
      = Mlp.hidden (fun k n => Ideal.sign (x5 (ix2 n k))) (fun n => x6 (ix1 n)) (fun k => val_main_v17 (F := Ideal) x0 x1 x2 x3 x4 (ix2 r k)) n := by
  rw [val_main_v26_apply, val_main_v25_apply, val_main_v22_apply, val_main_v24_apply, val_main_v23_apply,
    val_main_call2_v0_apply, val_main_call2_cst_apply]
  simp only [lidx22, ridx22, idx2324, weights3 x5 h5]
  rfl

/-- THE REFERENCE'S RESULT is the network's result array of its arguments, for finite hidden weights. -/
theorem result_eq (x0 : (⟨S524288x196, .f32⟩ : BufTy).Contents (Elt Ideal)) (x1 : (⟨S128x196, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S10x128, .f32⟩ : BufTy).Contents (Elt Ideal)) (x8 : (⟨S10, .f32⟩ : BufTy).Contents (Elt Ideal))
    (h1 : Net.Finite (s := S128x196) x1) (h3 : Net.Finite (s := S128x128) x3) (h5 : Net.Finite (s := S128x128) x5) :
    val_main_v31 (F := Ideal) x0 x1 x2 x3 x4 x5 x6 x7 x8 = Net.result x0 x1 x2 x3 x4 x5 x6 x7 x8 := by
  funext i
  obtain ⟨r, j, rfl⟩ : ∃ (r : Fin 524288) (j : Fin 10), i = ix2 r j := ⟨i 0, i 1, eq_ix2 i⟩
  rw [Net.result_apply x0 x1 x2 x3 x4 x5 x6 x7 x8 (ix2 r j) r j rfl rfl]
  rw [val_main_v31_apply, val_main_v28_apply, val_main_v30_apply, val_main_v29_apply]
  simp only [lidx28, ridx28, idx2930, val_main_v27_apply, idx27, layer3 x0 x1 x2 x3 x4 x5 x6 h5, layer2 x0 x1 x2 x3 x4 h3,
    layer1 x0 x1 x2 h1]
  rfl

end Cert.ReferenceIdeal.RefNet

end
-- ==== Proof.LibFiniteAll.lean ====
/-
  "Every entry is finite", read back from its one-bit test.

  A precondition that an f32 array `a` holds finite numbers is stated as `all(|a| < +∞)`: the entrywise comparison of
  `|a|` with the word `0x7F800000` splat over the array's shape, reduced by `and` over every axis from the bit 1 to a
  single bit. On the extended reals that word is `⊤` and `|x|` is `max x (-x)`. If the reduction is the bit 1, every
  entry compared true, and `max x (-x) < ⊤` holds of a real number and of neither infinity: so every entry of `a` is
  a real number. Stated for any shape and any list of reduced axes.
-/
import Idealize.ShloMosaic.Lib.ReduceAll
import Idealize.ShloMosaic.Lib.ValueIdx
import Idealize.ShloMosaic.Lib.Pipeline.Value

noncomputable section

namespace Cert.Lib.FiniteAll

open Idealize.ShloMosaic Idealize.ShloMosaic.ValueIdx

/-- The f32 word `0x7F800000` is `+∞`. -/
theorem ofBits_inf : Ideal.ofBits .f32 0x7F800000#32 = ⊤ := by simp [Ideal.ofBits, Ideal.ieee]

/-- `|x| < +∞` holds of no infinity. -/
theorem finite_of_lt (x : EReal) (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | top => simp [Ideal.cmp] at h
  | coe r => exact ⟨EReal.coe_ne_top r, EReal.coe_ne_bot r⟩

/-- The scalar shape has one index. -/
instance scalarIdx_subsingleton : Subsingleton (⟨0, ![]⟩ : Shape).Idx := ⟨fun _ _ => funext fun d => d.elim0⟩

/-- If "all entries of `a` have `|a| < +∞`" reduced to the bit 1, every entry of `a` is a real number. -/
theorem finite_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) : ∀ i, a i ≠ ⊤ ∧ a i ≠ ⊥ := by
  intro i
  have hi := Host.reduce_andi_all _ _ hr hu ix0 e i
  have hc : broadcastInDim s ![] hb (constant (F := Ideal) ⟨0, ![]⟩ .f32 0x7F800000#32) i = Ideal.ofBits .f32 0x7F800000#32 :=
    broadcastInDim_apply _ hb _ i ix0 (fun a => a.elim0)
  rw [cmpf_apply, hc] at hi
  exact finite_of_lt (a i) hi

end Cert.Lib.FiniteAll

end
-- ==== Proof.Finite.lean ====
/-
  Finiteness of the hidden weights, out of the precondition.

  The precondition is the conjunction, over the nine arguments, of "every entry `a` has `|a| < +∞`", each conjunct an
  `and`-reduction of the entrywise comparison to a single bit. The whole being 1 makes each conjunct 1, and a conjunct
  that is 1 says every entry of its array is a real number (`LibFiniteAll`). Only the three hidden weight matrices'
  conjuncts are read: those are the arrays whose finiteness the comparison of the two programs uses.
-/
import proofs.«141843_j48404281426021_2_alg».proof.Pre_finite_inputs
import proofs.«141843_j48404281426021_2_alg».proof.Proof.Network
import proofs.«141843_j48404281426021_2_alg».proof.Proof.LibFiniteAll

noncomputable section

namespace Cert.Pre_finite_inputs.Decode

open Cert.Pre_finite_inputs Idealize.ShloMosaic Idealize.ShloMosaic.ValueIdx

variable [Facts]

/-- From the precondition: the three hidden weight matrices are finite. -/
theorem hidden_weights_finite (a0 : FVec Ideal S524288x196 .f32) (a1 : FVec Ideal S128x196 .f32) (a2 : FVec Ideal S128 .f32)
    (a3 : FVec Ideal S128x128 .f32) (a4 : FVec Ideal S128 .f32) (a5 : FVec Ideal S128x128 .f32) (a6 : FVec Ideal S128 .f32)
    (a7 : FVec Ideal S10x128 .f32) (a8 : FVec Ideal S10 .f32)
    (h : fn (F := Ideal) a0 a1 a2 a3 a4 a5 a6 a7 a8 = fun _ => 1#1) :
    Net.Finite a1 ∧ Net.Finite a3 ∧ Net.Finite a5 := by
  have h0 := congrFun h ix0
  dsimp only [fn, fn_part1, fn_part2] at h0
  obtain ⟨h7, -⟩ := IntOp.andi_eq_one.1 h0
  obtain ⟨h6, -⟩ := IntOp.andi_eq_one.1 h7
  obtain ⟨h5, -⟩ := IntOp.andi_eq_one.1 h6
  obtain ⟨h4, r5⟩ := IntOp.andi_eq_one.1 h5
  obtain ⟨h3, -⟩ := IntOp.andi_eq_one.1 h4
  obtain ⟨h2, r3⟩ := IntOp.andi_eq_one.1 h3
  obtain ⟨h1, -⟩ := IntOp.andi_eq_one.1 h2
  obtain ⟨-, r1⟩ := IntOp.andi_eq_one.1 h1
  exact ⟨Cert.Lib.FiniteAll.finite_of_all a1 _ _ _ r1, Cert.Lib.FiniteAll.finite_of_all a3 _ _ _ r3,
    Cert.Lib.FiniteAll.finite_of_all a5 _ _ _ r5⟩

end Cert.Pre_finite_inputs.Decode

end
-- ==== Proof.lean ====
/-
  A four-layer perceptron kernel against its jnp reference, over the extended reals.

  Both programs compute, for each of 524288 rows `x` of 196 features,
      relu(relu(relu(x · s(W1)ᵀ + b1) · s(W2)ᵀ + b2) · s(W3)ᵀ + b3) · W4ᵀ + b4,
  with `s` a binarization of the hidden weights. The kernel takes `s(W) = sign W`: the host transposes the signs into
  (in, out) layout before the call, and each of 32 grid points multiplies a block of 16384 rows through the layers
  (its roundings to bf16 on the way into a product are the identity on the extended reals, and a product is the exact
  sum over the shared axis). The reference takes `s(W) = W + (sign W - W)` and multiplies all rows at once.

  The two agree because on a FINITE weight `w + (sign w - w) = sign w`; at an infinity the left side is `⊥`. The
  precondition (every input finite) gives that for `W1`, `W2`, `W3`, and is used nowhere else: the rest of the
  comparison is the same sums, the same maxima against the same zero and the same bias rows on both sides.

  `MlpRow` states the network on one row; `Network` the result array; `KernelRow`, `BlockArrays` and `Blocks` read
  the kernel's run as that array (one block's entry, the blocks' operands as the arguments, the blocks tiling the
  array); `RefRow` reads the reference's run as the same array under finiteness, which `Finite` takes out of the
  precondition. The ideal pass rewrote nothing in the kernel, so the idealization's conjunct is trivial.
-/
import proofs.«141843_j48404281426021_2_alg».proof.Defs
import proofs.«141843_j48404281426021_2_alg».proof.Proof.Gen.Kernel
import proofs.«141843_j48404281426021_2_alg».proof.Proof.Gen.Kernel.Skeleton
import proofs.«141843_j48404281426021_2_alg».proof.Proof.Gen.Kernel.Launch
import proofs.«141843_j48404281426021_2_alg».proof.Proof.Gen.Kernel.Points
import proofs.«141843_j48404281426021_2_alg».proof.Proof.Gen.Kernel.Frame
import proofs.«141843_j48404281426021_2_alg».proof.Proof.Gen.KernelIdeal
import proofs.«141843_j48404281426021_2_alg».proof.Proof.Gen.KernelIdeal.Skeleton
import proofs.«141843_j48404281426021_2_alg».proof.Proof.Gen.KernelIdeal.Launch
import proofs.«141843_j48404281426021_2_alg».proof.Proof.Gen.KernelIdeal.Points
import proofs.«141843_j48404281426021_2_alg».proof.Proof.Gen.KernelIdeal.Frame
import proofs.«141843_j48404281426021_2_alg».proof.Proof.Gen.ReferenceIdeal
import proofs.«141843_j48404281426021_2_alg».proof.Proof.Gen.Pre_finite_inputs
import proofs.«141843_j48404281426021_2_alg».proof.Proof.Gen.KernelIdeal.Value
import proofs.«141843_j48404281426021_2_alg».proof.Proof.Gen.ReferenceIdeal.Run
import proofs.«141843_j48404281426021_2_alg».proof.Proof.Gen.ReferenceIdeal.Read
import proofs.«141843_j48404281426021_2_alg».proof.Proof.Blocks
import proofs.«141843_j48404281426021_2_alg».proof.Proof.RefRow
import proofs.«141843_j48404281426021_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the network's result of its arguments; the reference's at the same function of
    arguments that agree, its binarized weights being the signs because the precondition makes them finite. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨f1, f3, f5⟩ := Cert.Pre_finite_inputs.Decode.hidden_weights_finite _ _ _ _ _ _ _ _ _ (hpre c)
  rw [Cert.ReferenceIdeal.Read.val_main_v31_eq, a0, a1, a2, a3, a4, a5, a6, a7, a8]
  exact Cert.ReferenceIdeal.RefNet.result_eq _ _ _ _ _ _ _ _ _ f1 f3 f5

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
